-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384 : Shape := ⟨1, ![384]⟩
abbrev S384x128 : Shape := ⟨2, ![384, 128]⟩
abbrev S_ : Shape := ⟨0, ![]⟩

class Facts : Prop where
  bcast_S_S384x128 : S_.BroadcastsInDim S384x128 (![] : Fin 0 → Fin S384x128.rank)
  reducesTo_S384x128_S_d0_1 : S384x128.ReducesTo [0, 1] S_
  h_S_ : 0 < S_.numel

variable [Facts]

def fn {F : FTy → Type} [FloatOps F] (main_arg0 : IVec S384 32) (main_arg1 : FVec F S384x128 .f32) : IVec S_ 1 :=
  let main_v0 : FVec F S384x128 .f32 := Host.absf main_arg1
  let main_cst : FVec F S_ .f32 := constant S_ .f32 0x7F800000#32
  let main_v1 : FVec F S384x128 .f32 := broadcastInDim S384x128 ![] bcast_S_S384x128 main_cst
  let main_v2 : IVec S384x128 1 := cmpf .olt main_v0 main_v1
  let main_c : IVec S_ 1 := constantI S_ 1 1#1
  let main_v3 : IVec S_ 1 := (fun x v => Host.reduce IntOp.andi x v reducesTo_S384x128_S_d0_1 h_S_) main_v2 main_c
  main_v3
-- ==== Kernel.lean ====
abbrev S384 : Shape := ⟨1, ![384]⟩
abbrev S384x128 : Shape := ⟨2, ![384, 128]⟩
abbrev S384x384 : Shape := ⟨2, ![384, 384]⟩
abbrev S128x384 : Shape := ⟨2, ![128, 384]⟩
abbrev S384x1 : Shape := ⟨2, ![384, 1]⟩
abbrev S1x384 : Shape := ⟨2, ![1, 384]⟩
abbrev S_ : Shape := ⟨0, ![]⟩
abbrev S8x384 : Shape := ⟨2, ![8, 384]⟩
abbrev S8x1x384 : Shape := ⟨3, ![8, 1, 384]⟩
abbrev S8x384x1 : Shape := ⟨3, ![8, 384, 1]⟩
abbrev S8x384x384 : Shape := ⟨3, ![8, 384, 384]⟩

abbrev nBuf : Space → Nat
  | .hbm => 32
  | .vmem => 10
  | .smem => 0
  | _ => 0

abbrev bufTy : (tb : Table) → Fin (tcTables nBuf tb) → BufTy
  | .hbm, ⟨0, _⟩ => ⟨S384, .i32⟩
  | .hbm, ⟨1, _⟩ => ⟨S384x128, .f32⟩
  | .hbm, ⟨2, _⟩ => ⟨S384x384, .f32⟩
  | .hbm, ⟨3, _⟩ => ⟨S384x384, .i32⟩
  | .hbm, ⟨4, _⟩ => ⟨S384x384, .i32⟩
  | .hbm, ⟨5, _⟩ => ⟨S_, .i32⟩
  | .hbm, ⟨6, _⟩ => ⟨S384x384, .i32⟩
  | .hbm, ⟨7, _⟩ => ⟨S384x384, .i32⟩
  | .hbm, ⟨8, _⟩ => ⟨S384x384, .i1⟩
  | .hbm, ⟨9, _⟩ => ⟨S384x1, .i32⟩
  | .hbm, ⟨10, _⟩ => ⟨S1x384, .i32⟩
  | .hbm, ⟨11, _⟩ => ⟨S384x384, .i32⟩
  | .hbm, ⟨12, _⟩ => ⟨S384x384, .i32⟩
  | .hbm, ⟨13, _⟩ => ⟨S384x384, .i1⟩
  | .hbm, ⟨14, _⟩ => ⟨S384x384, .i1⟩
  | .hbm, ⟨15, _⟩ => ⟨S384x384, .i1⟩
  | .hbm, ⟨16, _⟩ => ⟨S384x384, .f32⟩
  | .hbm, ⟨17, _⟩ => ⟨S384x384, .i1⟩
  | .hbm, ⟨18, _⟩ => ⟨S384x384, .f32⟩
  | .hbm, ⟨19, _⟩ => ⟨S384x384, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S384x128, .f32⟩
  | .local _ .vmem, ⟨1, _⟩ => ⟨S384x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | .local _ .vmem, ⟨7, _⟩ => ⟨S8x384, .f32⟩
  | .local _ .vmem, ⟨8, _⟩ => ⟨S8x384, .f32⟩
  | .local _ .vmem, ⟨9, _⟩ => ⟨S8x384, .f32⟩
  | _, _ => ⟨S384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_call0_v0 : Ref sig .tc := ⟨.hbm, 30, rfl⟩
abbrev main_v22 : Ref sig .tc := ⟨.hbm, 31, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S384x128_S384x128_0_0 : ∀ a, (![0, 0] : Fin 2 → Nat) a + S384x128.size a ≤ S384x128.size a
  h_S384x128 : 0 < S384x128.numel
  bitsLt_bf16_f32 : FTy.bits .bf16 < FTy.bits .f32
  transposes_S384x128_p1_0_S128x384 : S384x128.Transposes [1, 0] S128x384
  reduces_S384x128_S384 : S384x128.Reduces [1] S384
  shapeCasts_S384_S384x1 : S384.ShapeCasts S384x1
  transposes_S384x1_p1_0_S1x384 : S384x1.Transposes [1, 0] S1x384
  broadcasts_S384x1_S384x384 : S384x1.Broadcasts S384x384
  broadcasts_S1x384_S384x384 : S1x384.Broadcasts S384x384
  inb_S384x384_S384x384_0_0 : ∀ a, (![0, 0] : Fin 2 → Nat) a + S384x384.size a ≤ S384x384.size a
  h_S384x384 : 0 < S384x384.numel
  bcast_S_S384x384 : S_.BroadcastsInDim S384x384 (![] : Fin 0 → Fin S384x384.rank)
  bcast_S384_S384x1_0 : S384.BroadcastsInDim S384x1 (![0] : Fin 1 → Fin S384x1.rank)
  bcast_S384_S1x384_1 : S384.BroadcastsInDim S1x384 (![1] : Fin 1 → Fin S1x384.rank)
  bcast_S384x1_S384x384_0_1 : S384x1.BroadcastsInDim S384x384 (![0, 1] : Fin 2 → Fin S384x384.rank)
  bcast_S1x384_S384x384_0_1 : S1x384.BroadcastsInDim S384x384 (![0, 1] : Fin 2 → Fin S384x384.rank)
  inb_S8x384_S8x384_0_0 : ∀ a, (![0, 0] : Fin 2 → Nat) a + S8x384.size a ≤ S8x384.size a
  h_S8x384 : 0 < S8x384.numel
  shapeCasts_S8x384_S8x384 : S8x384.ShapeCasts S8x384
  shapeCasts_S8x384_S8x1x384 : S8x384.ShapeCasts S8x1x384
  shapeCasts_S8x384_S8x384x1 : S8x384.ShapeCasts S8x384x1
  broadcasts_S8x1x384_S8x384x384 : S8x1x384.Broadcasts S8x384x384
  broadcasts_S8x384x1_S8x384x384 : S8x384x1.Broadcasts S8x384x384
  natLt_1_32 : 1 < 32
  reduces_S8x384x384_S8x384 : S8x384x384.Reduces [2] S8x384
  reducesTo_S384x384_S_d0_1 : S384x384.ReducesTo [0, 1] S_
  h_S_ : 0 < S_.numel
  dot_S384x128_S128x384_S384x384_1_0_0_1_n_n_wf : DotDims.WF S384x128 S128x384 S384x384 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S384x128.size a ≤ S384x128.size a
  hwx0_0 : ∀ i : grid0.Coords, EltTy.bits .f32 = 32 ∨ (Rect.block (s := S384x128) S384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x384.size a ≤ S384x384.size a
  hwx1_0 : ∀ i : grid1.Coords, EltTy.bits .f32 = 32 ∨ (Rect.block (s := S384x384) S8x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x384.size a ≤ S384x384.size a
  hwx1_1 : ∀ i : grid1.Coords, EltTy.bits .f32 = 32 ∨ (Rect.block (s := S384x384) S8x384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x384.size a ≤ S384x384.size a
  hwx1_2 : ∀ i : grid1.Coords, EltTy.bits .f32 = 32 ∨ (Rect.block (s := S384x384) S8x384.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x384.size a ≤ S384x384.size a
  hwx1_3 : ∀ i : grid1.Coords, EltTy.bits .f32 = 32 ∨ (Rect.block (s := S384x384) S8x384.size (cc1_transform_3 i) (hinb1_3 i)).WholeWords (EltTy.packing .f32)

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

abbrev win0_0 : Pipeline.Window sig grid0 :=
  Pipeline.Window.ofSpec (Memref.whole main_arg1) S384x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S384x384.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S8x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S8x384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S8x384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S384 : Shape := ⟨1, ![384]⟩
abbrev S384x128 : Shape := ⟨2, ![384, 128]⟩
abbrev S384x384 : Shape := ⟨2, ![384, 384]⟩
abbrev S_ : Shape := ⟨0, ![]⟩
abbrev S384x1 : Shape := ⟨2, ![384, 1]⟩
abbrev S1x384 : Shape := ⟨2, ![1, 384]⟩
abbrev S384x384x1 : Shape := ⟨3, ![384, 384, 1]⟩
abbrev S384x1x384 : Shape := ⟨3, ![384, 1, 384]⟩
abbrev S384x384x384 : Shape := ⟨3, ![384, 384, 384]⟩
abbrev S128x384 : Shape := ⟨2, ![128, 384]⟩

abbrev nBuf : Space → Nat
  | .hbm => 100
  | .vmem => 0
  | .smem => 0
  | _ => 0

abbrev bufTy : (tb : Table) → Fin (tcTables nBuf tb) → BufTy
  | .hbm, ⟨0, _⟩ => ⟨S384, .i32⟩
  | .hbm, ⟨1, _⟩ => ⟨S384x128, .f32⟩
  | .hbm, ⟨2, _⟩ => ⟨S384x384, .i32⟩
  | .hbm, ⟨3, _⟩ => ⟨S384x384, .i32⟩
  | .hbm, ⟨4, _⟩ => ⟨S_, .i32⟩
  | .hbm, ⟨5, _⟩ => ⟨S384x384, .i32⟩
  | .hbm, ⟨6, _⟩ => ⟨S384x384, .i32⟩
  | .hbm, ⟨7, _⟩ => ⟨S384x384, .i1⟩
  | .hbm, ⟨8, _⟩ => ⟨S384x1, .i32⟩
  | .hbm, ⟨9, _⟩ => ⟨S1x384, .i32⟩
  | .hbm, ⟨10, _⟩ => ⟨S384x384, .i32⟩
  | .hbm, ⟨11, _⟩ => ⟨S384x384, .i32⟩
  | .hbm, ⟨12, _⟩ => ⟨S384x384, .i1⟩
  | .hbm, ⟨13, _⟩ => ⟨S384x384, .i1⟩
  | .hbm, ⟨14, _⟩ => ⟨S384x384, .i1⟩
  | .hbm, ⟨15, _⟩ => ⟨S384x384, .f32⟩
  | .hbm, ⟨16, _⟩ => ⟨S384x384, .i1⟩
  | .hbm, ⟨17, _⟩ => ⟨S384x384, .f32⟩
  | .hbm, ⟨18, _⟩ => ⟨S384x384x1, .f32⟩
  | .hbm, ⟨19, _⟩ => ⟨S384x1x384, .f32⟩
  | .hbm, ⟨20, _⟩ => ⟨S384x384x384, .f32⟩
  | .hbm, ⟨21, _⟩ => ⟨S384x384x384, .f32⟩
  | .hbm, ⟨22, _⟩ => ⟨S384x384x384, .f32⟩
  | .hbm, ⟨23, _⟩ => ⟨S384x128, .f32⟩
  | .hbm, ⟨24, _⟩ => ⟨S_, .f32⟩
  | .hbm, ⟨25, _⟩ => ⟨S384, .f32⟩
  | .hbm, ⟨26, _⟩ => ⟨S384x1, .f32⟩
  | .hbm, ⟨27, _⟩ => ⟨S1x384, .f32⟩
  | .hbm, ⟨28, _⟩ => ⟨S384x384, .f32⟩
  | .hbm, ⟨29, _⟩ => ⟨S384x384, .f32⟩
  | .hbm, ⟨30, _⟩ => ⟨S384x384, .f32⟩
  | .hbm, ⟨31, _⟩ => ⟨S128x384, .f32⟩
  | .hbm, ⟨32, _⟩ => ⟨S384x384, .f32⟩
  | .hbm, ⟨33, _⟩ => ⟨S_, .f32⟩
  | .hbm, ⟨34, _⟩ => ⟨S384x384, .f32⟩
  | .hbm, ⟨35, _⟩ => ⟨S384x384, .f32⟩
  | .hbm, ⟨36, _⟩ => ⟨S384x384, .f32⟩
  | .hbm, ⟨37, _⟩ => ⟨S_, .f32⟩
  | .hbm, ⟨38, _⟩ => ⟨S384x384, .f32⟩
  | .hbm, ⟨39, _⟩ => ⟨S384x384, .f32⟩
  | .hbm, ⟨40, _⟩ => ⟨S384x1x384, .f32⟩
  | .hbm, ⟨41, _⟩ => ⟨S384x384x1, .f32⟩
  | .hbm, ⟨42, _⟩ => ⟨S384x384x384, .f32⟩
  | .hbm, ⟨43, _⟩ => ⟨S384x384x384, .f32⟩
  | .hbm, ⟨44, _⟩ => ⟨S384x384x384, .f32⟩
  | .hbm, ⟨45, _⟩ => ⟨S_, .f32⟩
  | .hbm, ⟨46, _⟩ => ⟨S384x384x384, .f32⟩
  | .hbm, ⟨47, _⟩ => ⟨S384x384x384, .f32⟩
  | .hbm, ⟨48, _⟩ => ⟨S_, .f32⟩
  | .hbm, ⟨49, _⟩ => ⟨S384x384x384, .f32⟩
  | .hbm, ⟨50, _⟩ => ⟨S384x384x384, .f32⟩
  | .hbm, ⟨51, _⟩ => ⟨S_, .f32⟩
  | .hbm, ⟨52, _⟩ => ⟨S384x384x384, .f32⟩
  | .hbm, ⟨53, _⟩ => ⟨S384x384x384, .i1⟩
  | .hbm, ⟨54, _⟩ => ⟨S_, .f32⟩
  | .hbm, ⟨55, _⟩ => ⟨S384x384x384, .f32⟩
  | .hbm, ⟨56, _⟩ => ⟨S384x384x384, .i1⟩
  | .hbm, ⟨57, _⟩ => ⟨S384x384x384, .i1⟩
  | .hbm, ⟨58, _⟩ => ⟨S384x384x384, .f32⟩
  | .hbm, ⟨59, _⟩ => ⟨S384x384x384, .f32⟩
  | .hbm, ⟨60, _⟩ => ⟨S384x384x384, .f32⟩
  | .hbm, ⟨61, _⟩ => ⟨S_, .f32⟩
  | .hbm, ⟨62, _⟩ => ⟨S384x384, .f32⟩
  | .hbm, ⟨63, _⟩ => ⟨S_, .f32⟩
  | .hbm, ⟨64, _⟩ => ⟨S384x384x384, .f32⟩
  | .hbm, ⟨65, _⟩ => ⟨S384x384x384, .i1⟩
  | .hbm, ⟨66, _⟩ => ⟨S384x384x384, .f32⟩
  | .hbm, ⟨67, _⟩ => ⟨S384x384x384, .f32⟩
  | .hbm, ⟨68, _⟩ => ⟨S_, .f32⟩
  | .hbm, ⟨69, _⟩ => ⟨S384x384x384, .f32⟩
  | .hbm, ⟨70, _⟩ => ⟨S384x384x384, .f32⟩
  | .hbm, ⟨71, _⟩ => ⟨S384x384x384, .f32⟩
  | .hbm, ⟨72, _⟩ => ⟨S_, .f32⟩
  | .hbm, ⟨73, _⟩ => ⟨S384x384, .f32⟩
  | .hbm, ⟨74, _⟩ => ⟨S_, .f32⟩
  | .hbm, ⟨75, _⟩ => ⟨S384x384, .f32⟩
  | .hbm, ⟨76, _⟩ => ⟨S384x384, .f32⟩
  | .hbm, ⟨77, _⟩ => ⟨S_, .f32⟩
  | .hbm, ⟨78, _⟩ => ⟨S384x384, .f32⟩
  | .hbm, ⟨79, _⟩ => ⟨S384x384, .i1⟩
  | .hbm, ⟨80, _⟩ => ⟨S384x384, .f32⟩
  | .hbm, ⟨81, _⟩ => ⟨S384x384, .f32⟩
  | .hbm, ⟨82, _⟩ => ⟨S_, .f32⟩
  | .hbm, ⟨83, _⟩ => ⟨S384x384, .f32⟩
  | .hbm, ⟨84, _⟩ => ⟨S384x384, .i1⟩
  | .hbm, ⟨85, _⟩ => ⟨S384x384, .f32⟩
  | .hbm, ⟨86, _⟩ => ⟨S384x384, .f32⟩
  | .hbm, ⟨87, _⟩ => ⟨S384x384, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .i1⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_8 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_12 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_13 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_cst_15 : Ref sig .tc := ⟨.hbm, 92, rfl⟩
abbrev main_v73 : Ref sig .tc := ⟨.hbm, 93, rfl⟩
abbrev main_cst_16 : Ref sig .tc := ⟨.hbm, 94, rfl⟩
abbrev main_v74 : Ref sig .tc := ⟨.hbm, 95, rfl⟩
abbrev main_v75 : Ref sig .tc := ⟨.hbm, 96, rfl⟩
abbrev main_cst_17 : Ref sig .tc := ⟨.hbm, 97, rfl⟩
abbrev main_call0_v0 : Ref sig .tc := ⟨.hbm, 98, rfl⟩
abbrev main_v76 : Ref sig .tc := ⟨.hbm, 99, rfl⟩

abbrev nD : Nat := 1
abbrev τ : Topo := Topo.v7x

variable {F : FTy → Type} [FloatOps F]

class Facts₀ : Prop where
  bcast_S_S384x384 : S_.BroadcastsInDim S384x384 (![] : Fin 0 → Fin S384x384.rank)
  bcast_S384_S384x1_0 : S384.BroadcastsInDim S384x1 (![0] : Fin 1 → Fin S384x1.rank)
  bcast_S384_S1x384_1 : S384.BroadcastsInDim S1x384 (![1] : Fin 1 → Fin S1x384.rank)
  bcast_S384x1_S384x384_0_1 : S384x1.BroadcastsInDim S384x384 (![0, 1] : Fin 2 → Fin S384x384.rank)
  bcast_S1x384_S384x384_0_1 : S1x384.BroadcastsInDim S384x384 (![0, 1] : Fin 2 → Fin S384x384.rank)
  bcast_S384x384_S384x384x1_0_1 : S384x384.BroadcastsInDim S384x384x1 (![0, 1] : Fin 2 → Fin S384x384x1.rank)
  bcast_S384x384_S384x1x384_0_2 : S384x384.BroadcastsInDim S384x1x384 (![0, 2] : Fin 2 → Fin S384x1x384.rank)
  bcast_S384x384x1_S384x384x384_0_1_2 : S384x384x1.BroadcastsInDim S384x384x384 (![0, 1, 2] : Fin 3 → Fin S384x384x384.rank)
  bcast_S384x1x384_S384x384x384_0_1_2 : S384x1x384.BroadcastsInDim S384x384x384 (![0, 1, 2] : Fin 3 → Fin S384x384x384.rank)
  reducesTo_S384x128_S384_d1 : S384x128.ReducesTo [1] S384
  h_S_ : 0 < S_.numel
  transposes_S384x128_S128x384_1_0 : S384x128.Transposes [1, 0] S128x384
  bcast_S_S384x384x384 : S_.BroadcastsInDim S384x384x384 (![] : Fin 0 → Fin S384x384x384.rank)
  reducesTo_S384x384x384_S384x384_d2 : S384x384x384.ReducesTo [2] S384x384
  reducesTo_S384x384_S_d0_1 : S384x384.ReducesTo [0, 1] S_
  dot_S384x128_S128x384_S384x384_1_0_0_1_n_n_wf : DotDims.WF S384x128 S128x384 S384x384 [1] [0] [0] [1] [] []

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

class Facts : Prop extends Facts₀ where

variable [Facts]
-- ==== Proof.KRun.lean ====
/-
  The idealized kernel program's run with its result named: every weakly fair execution of @main terminates, nothing
  faulting, and in every final state the result buffer holds what the fold of @main's segments from the launch memory
  leaves there (the contents `W5 m ρ c` at the last segment boundary), the argument arrays as launched.
-/
import proofs.«126173_j12395275616920_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's five segments (the first kernel, sixteen host operations, the second kernel, the ten host
    operations of the mean and the two of the final selection); the last thread state is read against the final state:
    every unscoped buffer, the result among them, is at the last boundary's contents. -/
theorem run : θ_run defs (onTc (τ := τ) (main (F := F))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c)⟩)

end Cert.KernelIdeal.RunValue

end
-- ==== Proof.KChain.lean ====
/-
  Reading the kernel program's last boundary contents at the result buffer, back through the host operations that follow
  the second kernel: the result is the mean of the positive-pair losses — their sum over the sum of the positive mask,
  the denominator raised to at least 1, and 0 where the mask's sum is not positive — as ONE function `tail` of the loss
  matrix and the positive mask. The same function closes the reference's program.
-/
import proofs.«126173_j12395275616920_1_alg».proof.Proof.Gen.KernelIdeal.Frame
import proofs.«126173_j12395275616920_1_alg».proof.Proof.RefRead

noncomputable section

namespace Cert.KernelIdeal.Chain

open Cert.KernelIdeal Cert.KernelIdeal.Gen
open Idealize.ShloMosaic Idealize.ShloMosaic.TcCoe Idealize.ShloMosaic.StableHlo Idealize.SL.Sem

variable {F : FTy → Type} [FloatOps F]

/-- The mean over positive pairs: Σ losses / max (Σ mask) 1 where Σ mask > 0, else 0. -/
def tail (P SG : (⟨S384x384, .f32⟩ : BufTy).Contents (Elt F)) : (⟨S_, .f32⟩ : BufTy).Contents (Elt F) :=
  select
    (cmpf (F := F) .ogt (Host.reduceAdd SG (constant S_ .f32 0x00000000#32) Facts₀.reducesTo_S384x384_S_d0_1 Facts₀.h_S_) (constant S_ .f32 0x00000000#32))
    (Host.divf (Host.reduceAdd P (constant S_ .f32 0x00000000#32) Facts₀.reducesTo_S384x384_S_d0_1 Facts₀.h_S_)
      (maximumf (Host.reduceAdd SG (constant S_ .f32 0x00000000#32) Facts₀.reducesTo_S384x384_S_d0_1 Facts₀.h_S_) (constant S_ .f32 0x3F800000#32)))
    (id (constant S_ .f32 0x00000000#32))

variable (m : (ℓ : Loc nD τ sig) → Buf (Elt F) ℓ) (ρ : Dev nD → PrngReg)

/-- The result buffer at the last boundary is `tail` of the second kernel's output array and the positive mask as the
    second kernel's exit leaves them. -/
theorem W5_result (c : Dev nD) :
    W5 m ρ c (Proc.devRef .tc main_v22)
      = tail (W3 m ρ c (Proc.devRef .tc main_v16)) (W3 m ρ c (Proc.devRef .tc main_v13)) := by
  show StableHlo.after hostOps2_1 (StableHlo.after hostOps2 (W3 m ρ c)) (Proc.devRef .tc main_v22) = _
  generalize W3 m ρ c = W
  dsimp only [hostOps2_1, hostOps2]
  after_results
  rfl

/-- The second kernel's output array at its exit is what its write-backs leave. -/
theorem W3_out (c : Dev nD) :
    W3 m ρ c (Proc.devRef .tc main_v16) = (dat1 (V2 m ρ) c).arrAt 3 cfg1.N :=
  W3_arr m ρ c 3

/-- The positive mask is an input of the second kernel: at its exit it holds what it held at its entry. -/
theorem W3_mask (c : Dev nD) :
    W3 m ρ c (Proc.devRef .tc main_v13) = V2 m ρ c main_v13 :=
  (W3_arr m ρ c 1).trans (((dat1 (V2 m ρ) c).arrAt_in 1 rfl _).trans (A_eq1 (V2 m ρ) c 1))

/-- The classes are as launched when the first kernel has run (it does not write them). -/
theorem W1_classes (c : Dev nD) :
    W1 m ρ c (Proc.devRef .tc main_arg0) = m ((c : Thread nD τ).loc main_arg0) :=
  (W1_of_ne m ρ c main_arg0 (by decide)).trans rfl

/-- The distance matrix the second kernel reads is the first kernel's output array as its write-backs leave it:
    no host operation between the two kernels writes it. -/
theorem V2_dist (c : Dev nD) :
    V2 m ρ c main_v0 = (dat0 (V0 m ρ) c).arrAt 1 cfg0.N := by
  show StableHlo.after hostOps1 (W1 m ρ c) (Proc.devRef .tc main_v0) = _
  rw [← W1_arr m ρ c 1]
  generalize W1 m ρ c = W
  dsimp only [hostOps1]
  after_results

/-- The positive mask the second kernel reads: the sixteen host operations between the kernels applied to the classes —
    the reference's own stage of the same operations (same class and not the same sample, as 0 or 1). -/
theorem V2_pos (c : Dev nD) :
    V2 m ρ c main_v13 = Cert.ReferenceIdeal.ReadP.val_main_v12 (F := F) (m ((c : Thread nD τ).loc main_arg0)) := by
  show StableHlo.after hostOps1 (W1 m ρ c) (Proc.devRef .tc main_v13) = _
  rw [← W1_classes m ρ c]
  generalize W1 m ρ c = W
  dsimp only [hostOps1]
  after_results
  rfl

/-- The negative mask the second kernel reads: likewise the reference's stage (not the same class, as 0 or 1). -/
theorem V2_neg (c : Dev nD) :
    V2 m ρ c main_v15 = Cert.ReferenceIdeal.ReadP.val_main_v14 (F := F) (m ((c : Thread nD τ).loc main_arg0)) := by
  show StableHlo.after hostOps1 (W1 m ρ c) (Proc.devRef .tc main_v15) = _
  rw [← W1_classes m ρ c]
  generalize W1 m ρ c = W
  dsimp only [hostOps1]
  after_results
  rfl

end Cert.KernelIdeal.Chain

end
-- ==== Proof.Spec.lean ====
/-
  The mathematics both programs compute, as functions of the argument arrays, index by index over the extended reals.

  * `sqnorm e r` = Σₖ e[r,k]², `gram e i j` = Σₖ e[i,k]·e[j,k], and the clamped squared distance
    `distAt e i j` = max (‖eᵢ‖² + ‖eⱼ‖² − 2·⟨eᵢ,eⱼ⟩) 0.
  * For one anchor row (its distances `v`, its positive mask `pos`, its negative mask `neg`, all indexed by the 384 samples)
    and a positive candidate `j`: the hinge `hinge v j k` = max (margin − (v k − v j)) 0 of the triplet (anchor, j, k); the
    largest semihard loss `semihardMax` (a maximum over k, from −∞, of the hinge where 0 < hinge ≤ margin and the triplet is
    valid, else 0); the smallest shifted loss `hardMin` (a minimum over k, from +∞, of the hinge lowered by ρ on valid hard
    triplets); and `rowLoss` = semihard + [semihard = 0]·(hardMin + ρ)·[hardMin < 0].
  * `losses d sg dg` applies `rowLoss` to row p₀ of the three matrices at column p₁.
  Constants are kept as the binary words both programs print (the same word on both sides is never evaluated).
-/
import Idealize.ShloMosaic.PureOps.Ideal
import Idealize.ShloMosaic.Lib.ValueIdx

noncomputable section

namespace Cert.TripletSpec

open Idealize.ShloMosaic Idealize.ShloMosaic.ValueIdx

abbrev E : Shape := ⟨2, ![384, 128]⟩
abbrev M : Shape := ⟨2, ![384, 384]⟩

/-- A one-bit word as the extended real 0 or 1. -/
def b2f (b : BitVec 1) : EReal := ((b.toNat : ℝ) : EReal)

def zero : EReal := Ideal.ofBits .f32 0x00000000#32
def two : EReal := Ideal.ofBits .f32 0x40000000#32
def margin : EReal := Ideal.ofBits .f32 0x3E4CCCCD#32
def rho : EReal := Ideal.ofBits .f32 0x41200000#32
def negInf : EReal := Ideal.ofBits .f32 0xFF800000#32
def posInf : EReal := Ideal.ofBits .f32 0x7F800000#32

/-- Σₖ e[r,k]². -/
def sqnorm (e : E.Idx → EReal) (r : Fin 384) : EReal := ∑ k : Fin 128, e (ix2 r k) * e (ix2 r k)
/-- Σₖ e[i,k]·e[j,k]. -/
def gram (e : E.Idx → EReal) (i j : Fin 384) : EReal := ∑ k : Fin 128, e (ix2 i k) * e (ix2 j k)
/-- max (‖eᵢ‖² + ‖eⱼ‖² − 2·⟨eᵢ,eⱼ⟩) 0. -/
def distAt (e : E.Idx → EReal) (i j : Fin 384) : EReal := max (sqnorm e i + sqnorm e j - two * gram e i j) zero
/-- The clamped squared-distance matrix. -/
def dist (e : E.Idx → EReal) : M.Idx → EReal := fun p => distAt e (p 0) (p 1)

/-- The hinge of the triplet (anchor, positive j, negative k): max (margin − (v k − v j)) 0. -/
def hinge (v : Fin 384 → EReal) (j k : Fin 384) : EReal := max (margin - (v k - v j)) zero
/-- The triplet's validity weight: j is a positive of the anchor and k a negative. -/
def valid (pos neg : Fin 384 → EReal) (j k : Fin 384) : EReal := pos j * neg k
/-- The semihard term at k: the hinge where 0 < hinge ≤ margin and the triplet is valid, else its product with 0. -/
def semihardTerm (v pos neg : Fin 384 → EReal) (j k : Fin 384) : EReal :=
  hinge v j k * (b2f (IntOp.andi (Ideal.cmp .ogt (hinge v j k) zero) (Ideal.cmp .ole (hinge v j k) margin)) * valid pos neg j k)
/-- The shifted term at k: the hinge lowered by ρ where hinge > margin and the triplet is valid. -/
def shiftedTerm (v pos neg : Fin 384 → EReal) (j k : Fin 384) : EReal :=
  hinge v j k - rho * (b2f (Ideal.cmp .ogt (hinge v j k) margin) * valid pos neg j k)
/-- The largest semihard term over k, from −∞. -/
def semihardMax (v pos neg : Fin 384 → EReal) (j : Fin 384) : EReal :=
  (Finset.univ : Finset (Fin 384)).fold max negInf (semihardTerm v pos neg j)
/-- The smallest shifted term over k, from +∞. -/
def hardMin (v pos neg : Fin 384 → EReal) (j : Fin 384) : EReal :=
  (Finset.univ : Finset (Fin 384)).fold min posInf (shiftedTerm v pos neg j)
/-- The positive pair's loss from the two reductions: semihard + [semihard = 0]·((hardMin + ρ)·[hardMin < 0]). -/
def combine (sh hm : EReal) : EReal :=
  sh + b2f (Ideal.cmp .oeq sh zero) * ((hm + rho) * b2f (Ideal.cmp .olt hm zero))
/-- The loss of the positive pair (anchor, j). -/
def rowLoss (v pos neg : Fin 384 → EReal) (j : Fin 384) : EReal :=
  combine (semihardMax v pos neg j) (hardMin v pos neg j)
/-- The matrix of positive-pair losses from the distance matrix and the two masks. -/
def losses (d sg dg : M.Idx → EReal) : M.Idx → EReal :=
  fun p => rowLoss (fun k => d (ix2 (p 0) k)) (fun k => sg (ix2 (p 0) k)) (fun k => dg (ix2 (p 0) k)) (p 1)

theorem losses_ix2 (d sg dg : M.Idx → EReal) (i j : Fin 384) :
    losses d sg dg (ix2 i j) = rowLoss (fun k => d (ix2 i k)) (fun k => sg (ix2 i k)) (fun k => dg (ix2 i k)) j := rfl

theorem dist_ix2 (e : E.Idx → EReal) (i j : Fin 384) : dist e (ix2 i j) = distAt e i j := rfl

/-- A one-bit word widened to 32 bits and read as a signed integer is the word read as a natural number. -/
theorem sitofp_extui (b : BitVec 1) : (((b.setWidth 32).toInt : ℝ) : EReal) = b2f b := by
  rcases BitVec.eq_zero_or_eq_one b with h | h <;> subst h <;> simp [b2f]

end Cert.TripletSpec

end
-- ==== Proof.KDist.lean ====
/-
  The first kernel's payload read at an index: the clamped squared distance of rows i and j.
-/
import proofs.«126173_j12395275616920_1_alg».proof.Proof.Gen.KernelIdeal.Skeleton
import proofs.«126173_j12395275616920_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DistValue

open Idealize.ShloMosaic Idealize.ShloMosaic.ValueIdx Cert.KernelIdeal Cert.KernelIdeal.Gen

/-- The sum over the 128 lanes of row r. -/
private theorem laneSum_apply (v : FVec Ideal S384x128 .f32) (h : S384x128.Reduces [1] S384) (hφ : FKind.Formats .f32)
    (hacc : (0x00000000#32 : BitVec 32) = 0x00000000#32) (r : Fin 384) :
    multiReduction .add [1] S384 v 0x00000000#32 h hφ hacc (ix1 r) = ∑ k : Fin 128, v (ix2 r k) :=
  (Ideal.multiReduction_add_single v _ h hφ hacc (ix1 r)).trans
    (Finset.sum_congr rfl fun k _ => congrArg v (funext fun a => Fin.ext (by
      match a with
      | ⟨0, _⟩ => rfl
      | ⟨1, _⟩ => rfl)))

/-- A vector of 384 entries as a column: entry (r, u) is entry r. -/
private theorem column_apply {α : Type} (v : S384.Idx → α) (h : S384.ShapeCasts S384x1) (r : Fin 384) (u : Fin 1) :
    shapeCast S384x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column copied along the rows: entry (p, c) is the column's entry p. -/
private theorem columnBroadcast_apply {α : Type} (v : S384x1.Idx → α) (h : S384x1.Broadcasts S384x384) (p c : Fin 384) :
    broadcastTo S384x384 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-! The product's operand indices at output index p and contraction index q: (p₀, q) on the left, (q, p₁) on the right. -/

private theorem lhs_0 (p : S384x384.Idx) (q : dot_S384x128_S128x384_S384x384_1_0_0_1_n_n.contr.Idx) :
    (dot_S384x128_S128x384_S384x384_1_0_0_1_n_n.lhsIdx p q 0).val = (p 0).val := by
  unfold DotDims.lhsIdx
  rw [dif_neg (show ¬(0 : Fin S384x128.rank) ∈ dot_S384x128_S128x384_S384x384_1_0_0_1_n_n.lhsBatch by decide),
    dif_pos (show (0 : Fin S384x128.rank) ∈ dot_S384x128_S128x384_S384x384_1_0_0_1_n_n.lhsNonContracting by decide)]
  rfl

private theorem lhs_1 (p : S384x384.Idx) (q : dot_S384x128_S128x384_S384x384_1_0_0_1_n_n.contr.Idx) :
    (dot_S384x128_S128x384_S384x384_1_0_0_1_n_n.lhsIdx p q 1).val = (q ⟨0, by decide⟩).val :=
  dot_S384x128_S128x384_S384x384_1_0_0_1_n_n.lhsIdx_val_of_single rfl p q

private theorem rhs_0 (p : S384x384.Idx) (q : dot_S384x128_S128x384_S384x384_1_0_0_1_n_n.contr.Idx) :
    (dot_S384x128_S128x384_S384x384_1_0_0_1_n_n.rhsIdx p q 0).val = (q ⟨0, by decide⟩).val :=
  dot_S384x128_S128x384_S384x384_1_0_0_1_n_n.rhsIdx_val_of_single rfl p q

private theorem rhs_1 (p : S384x384.Idx) (q : dot_S384x128_S128x384_S384x384_1_0_0_1_n_n.contr.Idx) :
    (dot_S384x128_S128x384_S384x384_1_0_0_1_n_n.rhsIdx p q 1).val = (p 1).val := by
  unfold DotDims.rhsIdx
  rw [dif_neg (show ¬(1 : Fin S128x384.rank) ∈ dot_S384x128_S128x384_S384x384_1_0_0_1_n_n.rhsBatch by decide),
    dif_pos (show (1 : Fin S128x384.rank) ∈ dot_S384x128_S128x384_S384x384_1_0_0_1_n_n.rhsNonContracting by decide)]
  rfl

/-- The product of a 384 x 128 matrix and a 128 x 384 matrix, accumulated from zero, at (i, j). -/
private theorem product_apply {φ₁ φ₂ : FTy} (l : FVec Ideal S384x128 φ₁) (r : FVec Ideal S128x384 φ₂) (i j : Fin 384) :
    matmul dot_S384x128_S128x384_S384x384_1_0_0_1_n_n none l r (constant S384x384 .f32 0x00000000#32) (ix2 i j)
      = ∑ k : Fin 128, l (ix2 i k) * r (ix2 k j) := by
  simp only [matmul]
  rw [Ideal.matmul_constant_zero_apply,
    ← Equiv.sum_comp (contrEquiv1 dot_S384x128_S128x384_S384x384_1_0_0_1_n_n 128 rfl rfl).symm]
  refine Finset.sum_congr rfl fun k _ => ?_
  have hk := contrEquiv1_symm_val dot_S384x128_S128x384_S384x384_1_0_0_1_n_n 128 rfl rfl k
  have el : dot_S384x128_S128x384_S384x384_1_0_0_1_n_n.lhsIdx (ix2 i j)
      ((contrEquiv1 dot_S384x128_S128x384_S384x384_1_0_0_1_n_n 128 rfl rfl).symm k) = ix2 i k :=
    funext fun a => Fin.ext (by
      match a with
      | ⟨0, _⟩ => exact lhs_0 _ _
      | ⟨1, _⟩ => exact (lhs_1 _ _).trans hk)
  have er : dot_S384x128_S128x384_S384x384_1_0_0_1_n_n.rhsIdx (ix2 i j)
      ((contrEquiv1 dot_S384x128_S128x384_S384x384_1_0_0_1_n_n 128 rfl rfl).symm k) = ix2 k j :=
    funext fun a => Fin.ext (by
      match a with
      | ⟨0, _⟩ => exact (rhs_0 _ _).trans hk
      | ⟨1, _⟩ => exact rhs_1 _ _)
  rw [el, er]

/-- The product of a 384 x 128 matrix with the transpose of another, accumulated from zero, at (i, j): the inner
    product of row i of the first and row j of the second. -/
private theorem productTranspose_apply {φ₁ φ₂ : FTy} (l : FVec Ideal S384x128 φ₁) (m : FVec Ideal S384x128 φ₂)
    (h : S384x128.Transposes [1, 0] S128x384) (i j : Fin 384) :
    matmul dot_S384x128_S128x384_S384x384_1_0_0_1_n_n none l (transpose S128x384 [1, 0] m h)
        (constant S384x384 .f32 0x00000000#32) (ix2 i j)
      = ∑ k : Fin 128, l (ix2 i k) * m (ix2 j k) :=
  (product_apply l _ i j).trans
    (Finset.sum_congr rfl fun k _ => congrArg (l (ix2 i k) * ·) (transpose_ix2_apply m h k j))

theorem pay_dist (x : Vec Ideal S384x128 .f32) (i j : Fin 384) :
    k0_pay1 (F := Ideal) x (ix2 i j) = Cert.TripletSpec.distAt x i j := by
  unfold k0_pay1
  -- the pointwise operations at (i, j); then the product, the two broadcasts of the column of lane sums, the lane sums
  rw [maximumf_apply, subf_apply, addf_apply, mulf_apply, broadcast_apply, broadcast_apply,
    productTranspose_apply, columnBroadcast_apply, broadcastTo_1b_ab_apply, transpose_ix2_apply, column_apply, column_apply,
    laneSum_apply, laneSum_apply]
  -- narrowing to bf16 is the identity on extended reals; the two constants are the spec's words
  rfl

end Cert.KernelIdeal.DistValue

end
-- ==== Proof.KBlocks0.lean ====
/-
  From the block to the array, for the first kernel. Its grid has ONE point, whose input block is the whole embeddings
  array and whose output block is the whole 384 × 384 array; the body stores, through the whole rectangle, the clamped
  squared distances of every pair of rows. So the output array ends holding `dist` of the embeddings as the region
  finds them.
-/
import proofs.«126173_j12395275616920_1_alg».proof.Proof.Gen.KernelIdeal.Frame
import proofs.«126173_j12395275616920_1_alg».proof.Proof.KDist
import proofs.«126173_j12395275616920_1_alg».proof.Proof.Spec
import Idealize.ShloMosaic.Lib.Pipeline.Value
import Idealize.ShloMosaic.Lib.ValueIdx

noncomputable section

namespace Cert.KernelIdeal.Blocks0

open Cert.KernelIdeal Cert.KernelIdeal.Gen Cert.TripletSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The printed index maps at the grid's one point: both windows sit at block (0, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- WHAT THE POINT WRITES BACK is the (whole) block of `dist` of the embeddings as the region finds them. -/
theorem flushed_eq (c : Dev nD) (t : Fin cfg0.N) :
    (dat0 V c).flushed 1 t = ((cfg0.win 1).blk t).view.read (Elt Ideal) (dist (V c main_arg1)) := by
  show (cfg0.win 1).cut (grid0.coords t) ((dat0 V c).after 1 t) = _
  rw [after0_1]
  unfold out0_1
  rw [View.canon_unit_zero zero_off]
  simp only [View.ld_unit_zero (S := S384x128) zero_off]
  obtain ⟨e00, e01, e10, e11⟩ := idx_facts t
  funext y
  show k0_pay1 (F := Ideal) (iblk0 V c 0 t) y = dist (V c main_arg1) (((cfg0.win 1).blk t).view.emb y)
  refine ((congrArg (k0_pay1 (F := Ideal) (iblk0 V c 0 t)) (eq_ix2 y)).trans
    (Cert.KernelIdeal.DistValue.pay_dist _ (y 0) (y 1))).trans ?_
  -- the input block is the whole array, read in place
  have hx : ∀ x : S384x128.Idx, iblk0 V c 0 t x = V c main_arg1 x := by
    intro x
    show V c main_arg1 (((cfg0.win 0).blk t).view.emb x) = V c main_arg1 x
    refine congrArg (V c main_arg1) ?_
    funext a; apply Fin.ext
    match a with
    | ⟨0, _⟩ => show win0_0.index t (0 : Fin 2) * 384 + 1 * (x 0).val = (x 0).val; omega
    | ⟨1, _⟩ => show win0_0.index t (1 : Fin 2) * 128 + 1 * (x 1).val = (x 1).val; omega
  have h0 : (((cfg0.win 1).blk t).view.emb y) 0 = y 0 :=
    Fin.ext (show win0_1.index t (0 : Fin 2) * 384 + 1 * (y 0).val = (y 0).val by omega)
  have h1 : (((cfg0.win 1).blk t).view.emb y) 1 = y 1 :=
    Fin.ext (show win0_1.index t (1 : Fin 2) * 384 + 1 * (y 1).val = (y 1).val by omega)
  show distAt (iblk0 V c 0 t) (y 0) (y 1)
    = distAt (V c main_arg1) ((((cfg0.win 1).blk t).view.emb y) 0) ((((cfg0.win 1).blk t).view.emb y) 1)
  exact congr (congr (congrArg distAt (funext hx)) h0.symm) h1.symm

/-- An index of the array is in the point's block iff each coordinate is in the block's range on its axis. -/
theorem mem_blk (t : Fin cfg0.N) (i : S384x384.Idx) :
    i ∈ ((cfg0.win 1).blk t).view.set
      ↔ ∀ a : Fin 2, win0_1.index t a * S384x384.size a ≤ (i a).val ∧ (i a).val < win0_1.index t a * S384x384.size a + S384x384.size a := by
  show i ∈ ((View.whole main_v0).slice (win0_1.rect t)).set ↔ _
  rw [View.set_slice_whole, Rect.mem_set_unit]
  exact Iff.rfl

/-- The one block is the whole array. -/
theorem cover (i : S384x384.Idx) :
    ∃ t : Fin cfg0.N, (cfg0.win 1).flush t = true ∧ i ∈ ((cfg0.win 1).blk t).view.set := by
  have hi0 : (i 0).val < 384 := (i 0).isLt
  have hi1 : (i 1).val < 384 := (i 1).isLt
  obtain ⟨e00, e01, e10, e11⟩ := idx_facts t0_0
  refine ⟨t0_0, flush0_1 t0_0, ?_⟩
  rw [mem_blk]
  intro a
  match a with
  | ⟨0, _⟩ => show win0_1.index t0_0 (0 : Fin 2) * 384 ≤ (i 0).val ∧ (i 0).val < win0_1.index t0_0 (0 : Fin 2) * 384 + 384; omega
  | ⟨1, _⟩ => show win0_1.index t0_0 (1 : Fin 2) * 384 ≤ (i 1).val ∧ (i 1).val < win0_1.index t0_0 (1 : Fin 2) * 384 + 384; omega

/-- THE ARRAY after the first kernel: `dist` of the embeddings as the region finds them. -/
theorem final (c : Dev nD) : (dat0 V c).arrAt 1 cfg0.N = dist (V c main_arg1) :=
  (dat0 V c).arrAt_eq_of_cover 1 _ (fun t _ => flushed_eq V c t) cover

end Cert.KernelIdeal.Blocks0

end
-- ==== Proof.KTriplet.lean ====
/-
  The second kernel's output block read at an index: row r, column j of the block is the positive-pair loss of row r of
  the three input blocks (distances, positive mask, negative mask) at the candidate j.
-/
import proofs.«126173_j12395275616920_1_alg».proof.Proof.Gen.KernelIdeal.Frame
import proofs.«126173_j12395275616920_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TripletValue

open Idealize.ShloMosaic Idealize.ShloMosaic.ValueIdx Cert.KernelIdeal Cert.KernelIdeal.Gen

/-- An `[a, b]` array cast to `[a, 1, b]` reads, at `(i, u, j)`, the operand at `(i, j)`. -/
private theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
private theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, c]` array broadcast to `[a, b, c]` reads, at `(i, j, k)`, the operand at `(i, 0, k)`. -/
private theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the operand at `(i, j, 0)`. -/
private theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The hinge tensor at `(r, j, k)`: max (margin − (v[r,k] − v[r,j])) 0. -/
private theorem hinge_at (v : Vec Ideal S8x384 .f32) (r : Fin 8) (j k : Fin 384) :
    k1_pay2 (F := Ideal) v (ix3 r j k) = Cert.TripletSpec.hinge (fun k => v (ix2 r k)) j k := by
  unfold k1_pay2 Cert.TripletSpec.hinge Cert.TripletSpec.margin Cert.TripletSpec.zero
  simp only [maximumf_apply, subf_apply, broadcast_apply]
  rw [broadcastTo_a1c_abc_apply, broadcastTo_ab1_abc_apply, shapeCast_ab_a1b_apply, shapeCast_ab_ab1_apply, shapeCast_self]
  rfl

/-- The validity tensor at `(r, j, k)`: pos[r,j] · neg[r,k]. -/
private theorem valid_at (p n : Vec Ideal S8x384 .f32) (r : Fin 8) (j k : Fin 384) :
    k1_pay3 (F := Ideal) p n (ix3 r j k)
      = Cert.TripletSpec.valid (fun k => p (ix2 r k)) (fun k => n (ix2 r k)) j k := by
  unfold k1_pay3 Cert.TripletSpec.valid
  simp only [mulf_apply]
  rw [broadcastTo_a1c_abc_apply, broadcastTo_ab1_abc_apply, shapeCast_ab_a1b_apply, shapeCast_ab_ab1_apply, shapeCast_self,
    shapeCast_self]
/-- The source index over `(r, j)` with `k` on the reduced last axis is `(r, j, k)`. -/
private theorem lift_ix2 (h : S8x384x384.Reduces [2] S8x384) (r : Fin 8) (j k : Fin 384) :
    h.lift (ix2 r j) k = ix3 r j k := by
  funext c
  apply Fin.ext
  match c with
  | ⟨0, _⟩ => rfl
  | ⟨1, _⟩ => rfl
  | ⟨2, _⟩ => rfl

/-- A `vector.multi_reduction <minimumf>` over one axis at the extended reals: the fold of `min` from the accumulator's
    value over that axis's coordinates. -/
private theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The maximum over the last axis of an `[8, 384, 384]` tensor, at `(r, j)`: the fold of `max` over k of the tensor at `(r, j, k)`. -/
private theorem max_last_at (src : FVec Ideal S8x384x384 .f32) (acc : BitVec 32) (h : S8x384x384.Reduces [2] S8x384)
    (hφ : FKind.Formats .f32) (hacc : acc = FKind.maximumf.neutral .f32 hφ) (r : Fin 8) (j : Fin 384) :
    multiReduction .maximumf [2] S8x384 src acc h hφ hacc (ix2 r j)
      = (Finset.univ : Finset (Fin 384)).fold max (Ideal.ofBits .f32 acc) (fun k => src (ix3 r j k)) :=
  (Ideal.multiReduction_maximumf_single src acc h hφ hacc (ix2 r j)).trans
    (Finset.fold_congr (g := fun k : Fin 384 => src (ix3 r j k)) fun k _ => congrArg src (lift_ix2 h r j k))

/-- The minimum over the last axis likewise. -/
private theorem min_last_at (src : FVec Ideal S8x384x384 .f32) (acc : BitVec 32) (h : S8x384x384.Reduces [2] S8x384)
    (hφ : FKind.Formats .f32) (hacc : acc = FKind.minimumf.neutral .f32 hφ) (r : Fin 8) (j : Fin 384) :
    multiReduction .minimumf [2] S8x384 src acc h hφ hacc (ix2 r j)
      = (Finset.univ : Finset (Fin 384)).fold min (Ideal.ofBits .f32 acc) (fun k => src (ix3 r j k)) :=
  (multiReduction_minimumf_single src acc h hφ hacc (ix2 r j)).trans
    (Finset.fold_congr (g := fun k : Fin 384 => src (ix3 r j k)) fun k _ => congrArg src (lift_ix2 h r j k))

/-- A bitwise conjunction at an index is the conjunction of the elements. -/
private theorem andi_apply {s : Shape} {w : ℕ} (x y : IVec s w) (i : s.Idx) : andi x y i = IntOp.andi (x i) (y i) := rfl

/-- At the extended reals a one-bit word, widened to 32 bits and converted as a signed integer, is 0 or 1 as the word is. -/
private theorem sitofp_setWidth (b : BitVec 1) :
    FloatOps.sitofp (F := Ideal) .f32 (b.setWidth 32) = Cert.TripletSpec.b2f b :=
  Cert.TripletSpec.sitofp_extui b

/-- The first reduced row at `(r, j)`: the largest semihard term over k. -/
private theorem semihard_at (v p n : Vec Ideal S8x384 .f32) (r : Fin 8) (j : Fin 384) :
    k1_pay4 (F := Ideal) v p n (ix2 r j)
      = Cert.TripletSpec.semihardMax (fun k => v (ix2 r k)) (fun k => p (ix2 r k)) (fun k => n (ix2 r k)) j := by
  unfold k1_pay4
  refine (max_last_at _ _ _ _ _ r j).trans ?_
  unfold Cert.TripletSpec.semihardMax
  refine Finset.fold_congr fun (k : Fin 384) _ => ?_
  unfold Cert.TripletSpec.semihardTerm
  simp only [mulf_apply, sitofp_apply, extui_apply, andi_apply, cmpf_apply, broadcast_apply, hinge_at, valid_at]
  rw [sitofp_setWidth]
  rfl

/-- The second reduced row at `(r, j)`: the smallest shifted term over k. -/
private theorem hardmin_at (v p n : Vec Ideal S8x384 .f32) (r : Fin 8) (j : Fin 384) :
    k1_pay5 (F := Ideal) v p n (ix2 r j)
      = Cert.TripletSpec.hardMin (fun k => v (ix2 r k)) (fun k => p (ix2 r k)) (fun k => n (ix2 r k)) j := by
  unfold k1_pay5
  refine (min_last_at _ _ _ _ _ r j).trans ?_
  unfold Cert.TripletSpec.hardMin
  refine Finset.fold_congr fun (k : Fin 384) _ => ?_
  unfold Cert.TripletSpec.shiftedTerm
  simp only [mulf_apply, subf_apply, sitofp_apply, extui_apply, cmpf_apply, broadcast_apply, hinge_at, valid_at]
  rw [sitofp_setWidth]
  rfl

/-- The last payload at an index, over any two rows and any one-bit row: a + [a = 0]·(b·[c]). -/
private theorem pay1_at (a b : FVec Ideal S8x384 .f32) (c : IVec S8x384 1) (i : S8x384.Idx) :
    k1_pay1 (F := Ideal) a b c i
      = a i + Cert.TripletSpec.b2f (Ideal.cmp .oeq (a i) Cert.TripletSpec.zero) * (b i * Cert.TripletSpec.b2f (c i)) := by
  unfold k1_pay1
  simp only [addf_apply, mulf_apply, sitofp_apply, extui_apply, cmpf_apply, broadcast_apply]
  rw [sitofp_setWidth, sitofp_setWidth]
  rfl

/-- The shifted minimum plus ρ at `(r, j)`. -/
private theorem pay6_at (v p n : Vec Ideal S8x384 .f32) (r : Fin 8) (j : Fin 384) :
    k1_pay6 (F := Ideal) v p n (ix2 r j)
      = Cert.TripletSpec.hardMin (fun k => v (ix2 r k)) (fun k => p (ix2 r k)) (fun k => n (ix2 r k)) j
        + Cert.TripletSpec.rho := by
  unfold k1_pay6
  rw [addf_apply, hardmin_at, broadcast_apply]
  rfl

/-- Whether the shifted minimum is below zero, at `(r, j)`. -/
private theorem pay7_at (v p n : Vec Ideal S8x384 .f32) (r : Fin 8) (j : Fin 384) :
    k1_pay7 (F := Ideal) v p n (ix2 r j)
      = Ideal.cmp .olt (Cert.TripletSpec.hardMin (fun k => v (ix2 r k)) (fun k => p (ix2 r k)) (fun k => n (ix2 r k)) j)
          Cert.TripletSpec.zero := by
  unfold k1_pay7
  rw [cmpf_apply, hardmin_at, broadcast_apply]
  rfl

/-- Row r, column j of the stored block is the positive-pair loss of row r of the three loaded blocks at the candidate j:
    the one store covers the block, the loads read the blocks whole, and the payloads are the two reductions combined. -/
theorem out_loss (x0 x1 x2 : Vec Ideal S8x384 .f32) (r : Fin 8) (j : Fin 384) :
    out1_3 (F := Ideal) x0 x1 x2 (ix2 r j)
      = Cert.TripletSpec.rowLoss (fun k => x0 (ix2 r k)) (fun k => x1 (ix2 r k)) (fun k => x2 (ix2 r k)) j := by
  have hz : (![0, 0] : Fin 2 → ℕ) = fun _ => 0 := by funext a; fin_cases a <;> rfl
  unfold out1_3 Cert.TripletSpec.rowLoss Cert.TripletSpec.combine
  rw [View.canon_unit_zero hz]
  simp only [View.ld_unit_zero (S := S8x384) hz]
  rw [pay1_at, semihard_at, pay6_at, pay7_at]

end Cert.KernelIdeal.TripletValue

end
-- ==== Proof.KBlocks1.lean ====
/-
  From blocks to the array, for the second kernel. Its grid has 48 points; point t reads rows 8t … 8t+7 (all 384 columns)
  of the distance matrix and of the two masks, and writes back rows 8t … 8t+7 of the output. A row of the output block
  depends only on the same row of the three input blocks, so what point t writes back is block t of ONE function of the
  three whole arrays, `losses`; the 48 blocks tile the 384 rows, so the array ends holding `losses`.
-/
import proofs.«126173_j12395275616920_1_alg».proof.Proof.Gen.KernelIdeal.Frame
import proofs.«126173_j12395275616920_1_alg».proof.Proof.KTriplet
import proofs.«126173_j12395275616920_1_alg».proof.Proof.Spec
import Idealize.ShloMosaic.Lib.Pipeline.Value
import Idealize.ShloMosaic.Lib.ValueIdx

noncomputable section

namespace Cert.KernelIdeal.Blocks1

open Cert.KernelIdeal Cert.KernelIdeal.Gen Cert.TripletSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: every window's block row is the point, its block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The output block at an index with its coordinates named. -/
theorem out_loss_at (x0 x1 x2 : Vec Ideal S8x384 .f32) (y : S8x384.Idx) :
    out1_3 (F := Ideal) x0 x1 x2 y
      = rowLoss (fun k => x0 (ix2 (y 0) k)) (fun k => x1 (ix2 (y 0) k)) (fun k => x2 (ix2 (y 0) k)) (y 1) := by
  exact (congrArg (out1_3 (F := Ideal) x0 x1 x2) (eq_ix2 y)).trans
    (Cert.KernelIdeal.TripletValue.out_loss x0 x1 x2 (y 0) (y 1))

/-- WHAT POINT t WRITES BACK is block t of `losses` of the three arrays as the region finds them. -/
theorem flushed_eq (c : Dev nD) (t : Fin cfg1.N) :
    (dat1 V c).flushed 3 t
      = ((cfg1.win 3).blk t).view.read (Elt Ideal) (losses (V c main_v0) (V c main_v13) (V c main_v15)) := by
  show (cfg1.win 3).cut (grid1.coords t) ((dat1 V c).after 3 t) = _
  rw [after1_3]
  obtain ⟨e00, e01, e10, e11, e20, e21, e30, e31⟩ := idx_facts t
  funext y
  show out1_3 (F := Ideal) (iblk1 V c 0 t) (iblk1 V c 1 t) (iblk1 V c 2 t) y
    = losses (V c main_v0) (V c main_v13) (V c main_v15) (((cfg1.win 3).blk t).view.emb y)
  refine (out_loss_at _ _ _ y).trans ?_
  -- each input block is read at the array's row (block row · 8 + the row inside the block), every column
  have h0 : ∀ k : Fin 384, iblk1 V c 0 t (ix2 (y 0) k)
      = V c main_v0 (ix2 ((((cfg1.win 3).blk t).view.emb y) 0) k) := by
    intro k
    show V c main_v0 (((cfg1.win 0).blk t).view.emb (ix2 (y 0) k)) = _
    refine congrArg (V c main_v0) ?_
    funext a; apply Fin.ext
    match a with
    | ⟨0, _⟩ => show win1_0.index t (0 : Fin 2) * 8 + 1 * (y 0).val = win1_3.index t (0 : Fin 2) * 8 + 1 * (y 0).val; omega
    | ⟨1, _⟩ => show win1_0.index t (1 : Fin 2) * 384 + 1 * k.val = k.val; omega
  have h1 : ∀ k : Fin 384, iblk1 V c 1 t (ix2 (y 0) k)
      = V c main_v13 (ix2 ((((cfg1.win 3).blk t).view.emb y) 0) k) := by
    intro k
    show V c main_v13 (((cfg1.win 1).blk t).view.emb (ix2 (y 0) k)) = _
    refine congrArg (V c main_v13) ?_
    funext a; apply Fin.ext
    match a with
    | ⟨0, _⟩ => show win1_1.index t (0 : Fin 2) * 8 + 1 * (y 0).val = win1_3.index t (0 : Fin 2) * 8 + 1 * (y 0).val; omega
    | ⟨1, _⟩ => show win1_1.index t (1 : Fin 2) * 384 + 1 * k.val = k.val; omega
  have h2 : ∀ k : Fin 384, iblk1 V c 2 t (ix2 (y 0) k)
      = V c main_v15 (ix2 ((((cfg1.win 3).blk t).view.emb y) 0) k) := by
    intro k
    show V c main_v15 (((cfg1.win 2).blk t).view.emb (ix2 (y 0) k)) = _
    refine congrArg (V c main_v15) ?_
    funext a; apply Fin.ext
    match a with
    | ⟨0, _⟩ => show win1_2.index t (0 : Fin 2) * 8 + 1 * (y 0).val = win1_3.index t (0 : Fin 2) * 8 + 1 * (y 0).val; omega
    | ⟨1, _⟩ => show win1_2.index t (1 : Fin 2) * 384 + 1 * k.val = k.val; omega
  have hj : (((cfg1.win 3).blk t).view.emb y) 1 = y 1 :=
    Fin.ext (show win1_3.index t (1 : Fin 2) * 384 + 1 * (y 1).val = (y 1).val by omega)
  show rowLoss _ _ _ _
    = rowLoss (fun k => V c main_v0 (ix2 ((((cfg1.win 3).blk t).view.emb y) 0) k))
        (fun k => V c main_v13 (ix2 ((((cfg1.win 3).blk t).view.emb y) 0) k))
        (fun k => V c main_v15 (ix2 ((((cfg1.win 3).blk t).view.emb y) 0) k)) ((((cfg1.win 3).blk t).view.emb y) 1)
  exact congr (congr (congr (congrArg rowLoss (funext h0)) (funext h1)) (funext h2)) hj.symm

/-- An index of the array is in point t's block iff each coordinate is in the block's range on its axis. -/
theorem mem_blk (t : Fin cfg1.N) (i : S384x384.Idx) :
    i ∈ ((cfg1.win 3).blk t).view.set
      ↔ ∀ a : Fin 2, win1_3.index t a * S8x384.size a ≤ (i a).val ∧ (i a).val < win1_3.index t a * S8x384.size a + S8x384.size a := by
  show i ∈ ((View.whole main_v16).slice (win1_3.rect t)).set ↔ _
  rw [View.set_slice_whole, Rect.mem_set_unit]
  exact Iff.rfl

/-- Every block row is some point's. -/
theorem idx_onto : ∀ q : Fin 48, ∃ t : Fin cfg1.N, win1_3.index t = ![q.val, 0] :=
  (by decide +kernel : ∀ q : Fin 48, ∃ t : Fin grid1.N, win1_3.index t = ![q.val, 0])

/-- The 48 blocks tile the array: row i₀ is in the block of point i₀ / 8. -/
theorem cover (i : S384x384.Idx) :
    ∃ t : Fin cfg1.N, (cfg1.win 3).flush t = true ∧ i ∈ ((cfg1.win 3).blk t).view.set := by
  have hi0 : (i 0).val < 384 := (i 0).isLt
  have hi1 : (i 1).val < 384 := (i 1).isLt
  obtain ⟨t, ht⟩ := idx_onto ⟨(i 0).val / 8, by omega⟩
  have q0 : win1_3.index t (0 : Fin 2) = (i 0).val / 8 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 8 ≤ (i 0).val ∧ (i 0).val < win1_3.index t (0 : Fin 2) * 8 + 8; omega
  | ⟨1, _⟩ => show win1_3.index t (1 : Fin 2) * 384 ≤ (i 1).val ∧ (i 1).val < win1_3.index t (1 : Fin 2) * 384 + 384; omega

/-- THE ARRAY after the second kernel: `losses` of the three arrays as the region finds them. -/
theorem final (c : Dev nD) :
    (dat1 V c).arrAt 3 cfg1.N = losses (V c main_v0) (V c main_v13) (V c main_v15) :=
  (dat1 V c).arrAt_eq_of_cover 3 _ (fun t _ => flushed_eq V c t) cover

end Cert.KernelIdeal.Blocks1

end
-- ==== Proof.RDist.lean ====
/-
  The reference's distance matrix (its stage main_v33) is the clamped squared-distance matrix of the embeddings.
-/
import proofs.«126173_j12395275616920_1_alg».proof.Proof.RefRead
import proofs.«126173_j12395275616920_1_alg».proof.Proof.Spec

noncomputable section

namespace Cert.ReferenceIdeal.DistValue

open Idealize.ShloMosaic Idealize.ShloMosaic.ValueIdx Cert.ReferenceIdeal Cert.ReferenceIdeal.ReadP

/-! The composed index maps of the stages, at (i, j), by coordinates. -/

/-- Row i's squared norm is read at i: the column broadcast, then the broadcast along the rows. -/
private theorem idx_row (i j : Fin 384) : idx_main_v22 (idx_main_v24 (ix2 i j)) = ix1 i :=
  funext fun a => Fin.ext (by match a with | ⟨0, _⟩ => rfl)

/-- Column j's squared norm is read at j: the row broadcast, then the broadcast down the columns. -/
private theorem idx_col (i j : Fin 384) : idx_main_v23 (idx_main_v25 (ix2 i j)) = ix1 j :=
  funext fun a => Fin.ext (by match a with | ⟨0, _⟩ => rfl)

/-- The k-th term of row r's sum is read at (r, k). -/
private theorem idx_lane (r : Fin 384) (k : Fin 128) : idx_main_v21 (ix1 r) k = ix2 r k :=
  funext fun a => Fin.ext (by match a with | ⟨0, _⟩ => rfl | ⟨1, _⟩ => rfl)

/-- The product's left factor at (i, j) and k is read at (i, k). -/
private theorem idx_left (i j : Fin 384) (k : Fin 128) : lidx_main_v28 (ix2 i j) k = ix2 i k :=
  funext fun a => Fin.ext (by match a with | ⟨0, _⟩ => rfl | ⟨1, _⟩ => rfl)

/-- The product's right factor, the transposed argument, at (i, j) and k is the argument at (j, k). -/
private theorem idx_right (i j : Fin 384) (k : Fin 128) : idx_main_v27 (ridx_main_v28 (ix2 i j) k) = ix2 j k :=
  funext fun a => Fin.ext (by match a with | ⟨0, _⟩ => rfl | ⟨1, _⟩ => rfl)

/-- The reference's distance matrix at (i, j). -/
private theorem ref_dist_ix2 (x1 : (⟨S384x128, .f32⟩ : BufTy).Contents (Elt Ideal)) (i j : Fin 384) :
    val_main_v33 (F := Ideal) x1 (ix2 i j) = Cert.TripletSpec.distAt x1 i j := by
  rw [val_main_v33_apply, val_main_v32_apply, val_main_cst_1_apply, val_main_v31_apply, val_main_v30_apply,
    val_main_v29_apply, val_main_cst_0_apply, val_main_v28_apply, val_main_v26_apply, val_main_v25_apply,
    val_main_v24_apply, val_main_v23_apply, val_main_v22_apply, idx_row, idx_col, val_main_v21_apply,
    val_main_v21_apply, val_main_cst_apply]
  simp only [val_main_v27_apply, val_main_v20_apply, idx_lane, idx_left, idx_right]
  -- each sum starts from the zero word, the extended real 0
  have hz : ∀ s : EReal, FloatOps.ofBits (F := Ideal) .f32 0x00000000#32 + s = s := fun s => by
    rw [Ideal.ofBits_def, Ideal.ofBits_zero_f32, zero_add]
  simp only [hz]
  -- what is left is the spec's expression, with the operations under their instance names
  rfl

theorem ref_dist (x1 : (⟨S384x128, .f32⟩ : BufTy).Contents (Elt Ideal)) :
    val_main_v33 (F := Ideal) x1 = Cert.TripletSpec.dist x1 := by
  funext p
  exact (congrArg (val_main_v33 (F := Ideal) x1) (eq_ix2 p)).trans (ref_dist_ix2 x1 (p 0) (p 1))

end Cert.ReferenceIdeal.DistValue

end
-- ==== Proof.RLoss.lean ====
/-
  The reference's matrix of positive-pair losses (its stage main_v70) is the row loss applied to its own distance matrix
  (main_v33) and its two masks (main_v12, main_v14).

  Reading order: the hinge max (margin − (d[i,k] − d[i,j])) 0 at (i, j, k); the validity weight pos[i,j]·neg[i,k] at (i, j, k);
  the semihard and the shifted term at (i, j, k); their maximum from −∞ and minimum from +∞ over k, as folds over the 384
  values of k; then the combination semihard + [semihard = 0]·((hardMin + ρ)·[hardMin < 0]) at (i, j).
-/
import proofs.«126173_j12395275616920_1_alg».proof.Proof.RefRead
import proofs.«126173_j12395275616920_1_alg».proof.Proof.Spec

noncomputable section

namespace Cert.ReferenceIdeal.LossValue

open Idealize.ShloMosaic Idealize.ShloMosaic.ValueIdx Cert.ReferenceIdeal Cert.ReferenceIdeal.ReadP
open Cert.TripletSpec

/-! ## Where the broadcasts read: (i, j, k) ↦ (i, k) through the middle unit axis, (i, j, k) ↦ (i, j) through the last one -/

/-- The distance matrix broadcast along the positive axis is read at (i, k). -/
private theorem idx_neg_dist (i j k : Fin 384) : idx_main_v34 (idx_main_v36 (ix3 i j k)) = ix2 i k :=
  funext fun a => Fin.ext (by match a with | ⟨0, _⟩ => rfl | ⟨1, _⟩ => rfl)

/-- The distance matrix broadcast along the negative axis is read at (i, j). -/
private theorem idx_pos_dist (i j k : Fin 384) : idx_main_v35 (idx_main_v37 (ix3 i j k)) = ix2 i j :=
  funext fun a => Fin.ext (by match a with | ⟨0, _⟩ => rfl | ⟨1, _⟩ => rfl)

/-- The positive mask broadcast along the negative axis is read at (i, j). -/
private theorem idx_pos_mask (i j k : Fin 384) : idx_main_v15 (idx_main_v17 (ix3 i j k)) = ix2 i j :=
  funext fun a => Fin.ext (by match a with | ⟨0, _⟩ => rfl | ⟨1, _⟩ => rfl)

/-- The negative mask broadcast along the positive axis is read at (i, k). -/
private theorem idx_neg_mask (i j k : Fin 384) : idx_main_v16 (idx_main_v18 (ix3 i j k)) = ix2 i k :=
  funext fun a => Fin.ext (by match a with | ⟨0, _⟩ => rfl | ⟨1, _⟩ => rfl)

/-! ## The three-index tensors at (i, j, k) -/

/-- main_v42 at (i, j, k) is the hinge max (margin − (d[i,k] − d[i,j])) 0 of row i of the distance matrix. -/
private theorem hinge_at (x1 : (⟨S384x128, .f32⟩ : BufTy).Contents (Elt Ideal)) (i j k : Fin 384) :
    val_main_v42 (F := Ideal) x1 (ix3 i j k) = hinge (fun k => val_main_v33 (F := Ideal) x1 (ix2 i k)) j k := by
  rw [val_main_v42_apply, val_main_v40_apply, val_main_v39_apply, val_main_cst_2_apply, val_main_v38_apply,
    val_main_v36_apply, val_main_v34_apply, val_main_v37_apply, val_main_v35_apply, val_main_v41_apply, val_main_cst_3_apply,
    idx_neg_dist, idx_pos_dist]
  rfl

/-- main_v19 at (i, j, k) is the validity weight pos[i,j] · neg[i,k]. -/
private theorem valid_at (x0 : (⟨S384, .i32⟩ : BufTy).Contents (Elt Ideal)) (i j k : Fin 384) :
    val_main_v19 (F := Ideal) x0 (ix3 i j k)
      = valid (fun k => val_main_v12 (F := Ideal) x0 (ix2 i k)) (fun k => val_main_v14 (F := Ideal) x0 (ix2 i k)) j k := by
  rw [val_main_v19_apply, val_main_v17_apply, val_main_v15_apply, val_main_v18_apply, val_main_v16_apply, idx_pos_mask, idx_neg_mask]
  rfl

/-- main_v50 at (i, j, k) is the semihard term: hinge · ([0 < hinge ∧ hinge ≤ margin] · valid). -/
private theorem semihard_at (x0 : (⟨S384, .i32⟩ : BufTy).Contents (Elt Ideal)) (x1 : (⟨S384x128, .f32⟩ : BufTy).Contents (Elt Ideal))
    (i j k : Fin 384) :
    val_main_v50 (F := Ideal) x0 x1 (ix3 i j k)
      = semihardTerm (fun k => val_main_v33 (F := Ideal) x1 (ix2 i k)) (fun k => val_main_v12 (F := Ideal) x0 (ix2 i k))
          (fun k => val_main_v14 (F := Ideal) x0 (ix2 i k)) j k := by
  rw [val_main_v50_apply, val_main_v49_apply, val_main_v48_apply, val_main_v47_apply, val_main_v44_apply, val_main_v46_apply,
    val_main_v43_apply, val_main_cst_4_apply, val_main_v45_apply, val_main_cst_5_apply, hinge_at, valid_at]
  rfl

/-- main_v58 at (i, j, k) is the shifted term: hinge − ρ · ([margin < hinge] · valid). -/
private theorem shifted_at (x0 : (⟨S384, .i32⟩ : BufTy).Contents (Elt Ideal)) (x1 : (⟨S384x128, .f32⟩ : BufTy).Contents (Elt Ideal))
    (i j k : Fin 384) :
    val_main_v58 (F := Ideal) x0 x1 (ix3 i j k)
      = shiftedTerm (fun k => val_main_v33 (F := Ideal) x1 (ix2 i k)) (fun k => val_main_v12 (F := Ideal) x0 (ix2 i k))
          (fun k => val_main_v14 (F := Ideal) x0 (ix2 i k)) j k := by
  rw [val_main_v58_apply, val_main_v57_apply, val_main_v56_apply, val_main_cst_8_apply, val_main_v55_apply, val_main_v54_apply,
    val_main_v53_apply, val_main_v52_apply, val_main_cst_7_apply, hinge_at, valid_at]
  rfl

/-! ## The two reductions over the last axis, as folds over k -/

/-- Dropping the last axis of a 384 × 384 × 384 tensor leaves a 384 × 384 matrix. -/
private theorem reduces_last : S384x384x384.Reduces [2] S384x384 := by decide

/-- The index over (i, j) whose last coordinate is k is (i, j, k). -/
private theorem lift_last (i j k : Fin 384) : reduces_last.lift (ix2 i j) k = ix3 i j k :=
  funext fun a => Fin.ext (by match a with | ⟨0, _⟩ => rfl | ⟨1, _⟩ => rfl | ⟨2, _⟩ => rfl)

/-- main_v51 at (i, j): max is commutative and associative, so the reduction from −∞ over the last axis is the fold of max over k
    of the semihard terms. -/
private theorem semihardMax_at (x0 : (⟨S384, .i32⟩ : BufTy).Contents (Elt Ideal)) (x1 : (⟨S384x128, .f32⟩ : BufTy).Contents (Elt Ideal))
    (i j : Fin 384) :
    val_main_v51 (F := Ideal) x0 x1 (ix2 i j)
      = semihardMax (fun k => val_main_v33 (F := Ideal) x1 (ix2 i k)) (fun k => val_main_v12 (F := Ideal) x0 (ix2 i k))
          (fun k => val_main_v14 (F := Ideal) x0 (ix2 i k)) j := by
  unfold val_main_v51
  refine (Host.reduce_eq_fold_single (FloatOps.maximumf (F := Ideal) (φ := .f32)) (val_main_v50 (F := Ideal) x0 x1)
    (val_main_cst_6 (F := Ideal)) Gen.reducesTo_S384x384x384_S384x384_d2 reduces_last Gen.h_S_ (ix2 i j)).trans ?_
  refine Finset.fold_congr (fun (k : Fin 384) _ => ?_)
  exact (congrArg (val_main_v50 (F := Ideal) x0 x1) (lift_last i j k)).trans (semihard_at x0 x1 i j k)

/-- main_v59 at (i, j): likewise the reduction from +∞ is the fold of min over k of the shifted terms. -/
private theorem hardMin_at (x0 : (⟨S384, .i32⟩ : BufTy).Contents (Elt Ideal)) (x1 : (⟨S384x128, .f32⟩ : BufTy).Contents (Elt Ideal))
    (i j : Fin 384) :
    val_main_v59 (F := Ideal) x0 x1 (ix2 i j)
      = hardMin (fun k => val_main_v33 (F := Ideal) x1 (ix2 i k)) (fun k => val_main_v12 (F := Ideal) x0 (ix2 i k))
          (fun k => val_main_v14 (F := Ideal) x0 (ix2 i k)) j := by
  unfold val_main_v59
  refine (Host.reduce_eq_fold_single (FloatOps.minimumf (F := Ideal) (φ := .f32)) (val_main_v58 (F := Ideal) x0 x1)
    (val_main_cst_9 (F := Ideal)) Gen.reducesTo_S384x384x384_S384x384_d2 reduces_last Gen.h_S_ (ix2 i j)).trans ?_
  refine Finset.fold_congr (fun (k : Fin 384) _ => ?_)
  exact (congrArg (val_main_v58 (F := Ideal) x0 x1) (lift_last i j k)).trans (shifted_at x0 x1 i j k)

/-! ## The combination at (i, j) -/

theorem ref_losses (x0 : (⟨S384, .i32⟩ : BufTy).Contents (Elt Ideal)) (x1 : (⟨S384x128, .f32⟩ : BufTy).Contents (Elt Ideal)) :
    val_main_v70 (F := Ideal) x0 x1
      = Cert.TripletSpec.losses (val_main_v33 (F := Ideal) x1) (val_main_v12 (F := Ideal) x0) (val_main_v14 (F := Ideal) x0) := by
  funext p
  obtain ⟨i, j, rfl⟩ : ∃ i j : Fin 384, p = ix2 i j := ⟨p 0, p 1, eq_ix2 p⟩
  rw [losses_ix2, val_main_v70_apply, val_main_v69_apply, val_main_v68_apply, val_main_v67_apply, val_main_v66_apply,
    val_main_cst_12_apply, val_main_v65_apply, val_main_v64_apply, val_main_v63_apply, val_main_v62_apply, val_main_cst_11_apply,
    val_main_v61_apply, val_main_v60_apply, val_main_cst_10_apply, semihardMax_at, hardMin_at]
  rfl

end Cert.ReferenceIdeal.LossValue

end
-- ==== Proof.Join.lean ====
/-
  The two programs compute one function of the arguments. With x₀ the classes and x₁ the embeddings as launched,
    result x₀ x₁ = tail (losses (dist x₁) (pos x₀) (neg x₀)) (pos x₀)
  where pos and neg are the two masks (same class and not the same sample; not the same class), dist the clamped squared
  distances, losses the positive-pair losses and tail their mean over the positive pairs.
  * The kernel program: its last boundary contents at the result buffer is `tail` of the second kernel's output array and
    the positive mask; that array is `losses` of the first kernel's output array and the two masks (48 blocks of 8 rows
    tile it); the first kernel's output array is `dist` of the embeddings (one whole block).
  * The reference: its result stage is `tail` of its loss stage and its positive mask by unfolding; its loss stage is
    `losses` of its distance stage and its masks; its distance stage is `dist` of the embeddings.
-/
import proofs.«126173_j12395275616920_1_alg».proof.Proof.KChain
import proofs.«126173_j12395275616920_1_alg».proof.Proof.KBlocks0
import proofs.«126173_j12395275616920_1_alg».proof.Proof.KBlocks1
import proofs.«126173_j12395275616920_1_alg».proof.Proof.RDist
import proofs.«126173_j12395275616920_1_alg».proof.Proof.RLoss

noncomputable section

namespace Cert.Join

open Idealize.ShloMosaic Idealize.ShloMosaic.TcCoe Idealize.SL.Sem
open Cert.TripletSpec Cert.ReferenceIdeal.ReadP

/-- The common result as a function of the two argument arrays. -/
def result (x0 : (⟨Cert.ReferenceIdeal.S384, .i32⟩ : BufTy).Contents (Elt Ideal))
    (x1 : (⟨Cert.ReferenceIdeal.S384x128, .f32⟩ : BufTy).Contents (Elt Ideal)) :
    (⟨Cert.KernelIdeal.S_, .f32⟩ : BufTy).Contents (Elt Ideal) :=
  Cert.KernelIdeal.Chain.tail (F := Ideal)
    (losses (dist x1) (val_main_v12 (F := Ideal) x0) (val_main_v14 (F := Ideal) x0))
    (val_main_v12 (F := Ideal) x0)

/-- The reference's result stage is the common result. -/
theorem ref_value (x0 : (⟨Cert.ReferenceIdeal.S384, .i32⟩ : BufTy).Contents (Elt Ideal))
    (x1 : (⟨Cert.ReferenceIdeal.S384x128, .f32⟩ : BufTy).Contents (Elt Ideal)) :
    val_main_v76 (F := Ideal) x0 x1 = result x0 x1 := by
  have h : val_main_v76 (F := Ideal) x0 x1
      = Cert.KernelIdeal.Chain.tail (F := Ideal) (val_main_v70 (F := Ideal) x0 x1) (val_main_v12 (F := Ideal) x0) := rfl
  rw [h, Cert.ReferenceIdeal.LossValue.ref_losses, Cert.ReferenceIdeal.DistValue.ref_dist]
  rfl

section Kernel

open Cert.KernelIdeal Cert.KernelIdeal.Gen Cert.KernelIdeal.Chain

variable (m : (ℓ : Loc nD τ sig) → Buf (Elt Ideal) ℓ) (ρ : Dev nD → PrngReg)

/-- The kernel program's last boundary contents at the result buffer is the common result of the launched arguments. -/
theorem kernel_value (c : Dev nD) :
    W5 m ρ c (Proc.devRef .tc main_v22)
      = result (m ((c : Thread nD τ).loc main_arg0)) (m ((c : Thread nD τ).loc main_arg1)) := by
  rw [W5_result, W3_out, W3_mask, Cert.KernelIdeal.Blocks1.final (V2 m ρ) c, V2_dist,
    Cert.KernelIdeal.Blocks0.final (V0 m ρ) c, V2_pos, V2_neg]
  rfl

end Kernel

end Cert.Join

end
-- ==== Proof.lean ====
/- The proof of `Cert.Claim`: a triplet-mining loss over 384 embeddings of dimension 128 with 48 classes, computed by two
   kernels (the clamped squared-distance matrix; then, anchor row by anchor row, the positive-pair losses — for each positive
   j the largest semihard hinge over the negatives k, and where that is 0 the smallest hard hinge) and the mean over the
   positive pairs on the host, against the same loss written with whole three-dimensional tensors.
   * The three frames: the two kernel programs terminate without a fault and leave their arguments as launched (the launch
     over @main's five segments); the reference by its run, the result dropped.
   * `preserves`: the idealization rewrote nothing, so there is nothing to state.
   * `algebraic`: over the extended reals both programs end with ONE function of the arguments, `Cert.Join.result`
     (Proof/Join.lean): the kernel's rounding to bf16 before its matrix product is the identity on extended reals, its
     product into a zero accumulator and the host's contraction are the same sum over the 128 coordinates, a lane sum and a
     host sum are the same sum, a lane maximum or minimum and the host's are the same fold over the 384 negatives, and
     a row of the second kernel's output block depends only on the same row of its three input blocks, so its 48 blocks
     of 8 rows are the blocks of one whole-array function. No law used needs finiteness: the precondition is not opened. -/
import proofs.«126173_j12395275616920_1_alg».proof.Defs
import proofs.«126173_j12395275616920_1_alg».proof.Proof.KRun
import proofs.«126173_j12395275616920_1_alg».proof.Proof.Join
import proofs.«126173_j12395275616920_1_alg».proof.Proof.RefRun
import proofs.«126173_j12395275616920_1_alg».proof.Proof.RefRead
import proofs.«126173_j12395275616920_1_alg».proof.Proof.Gen.Kernel
import proofs.«126173_j12395275616920_1_alg».proof.Proof.Gen.Kernel.Skeleton
import proofs.«126173_j12395275616920_1_alg».proof.Proof.Gen.Kernel.Launch
import proofs.«126173_j12395275616920_1_alg».proof.Proof.Gen.Kernel.Points
import proofs.«126173_j12395275616920_1_alg».proof.Proof.Gen.Kernel.Frame
import proofs.«126173_j12395275616920_1_alg».proof.Proof.Gen.KernelIdeal
import proofs.«126173_j12395275616920_1_alg».proof.Proof.Gen.KernelIdeal.Skeleton
import proofs.«126173_j12395275616920_1_alg».proof.Proof.Gen.KernelIdeal.Launch
import proofs.«126173_j12395275616920_1_alg».proof.Proof.Gen.KernelIdeal.Points
import proofs.«126173_j12395275616920_1_alg».proof.Proof.Gen.KernelIdeal.Frame
import proofs.«126173_j12395275616920_1_alg».proof.Proof.Gen.ReferenceIdeal
import proofs.«126173_j12395275616920_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with `Cert.Join.result` of the launched classes and
    embeddings: the kernel program by its run and the reading of its last boundary contents, the reference by its run and
    the reading of its result stage, the arguments' agreement rewritten. -/
theorem algebraic : Cert.algebraic_KernelIdeal_ReferenceIdeal := by
  intro m ρ m' ρ' _ hagree
  refine ⟨fun c => Cert.Join.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Join.kernel_value m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v76_eq, (hagree c).1, (hagree c).2]
    exact Cert.Join.ref_value _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
